-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x256 : Shape := ⟨2, ![500000, 256]⟩
abbrev S500000 : Shape := ⟨1, ![500000]⟩
abbrev S256x384 : Shape := ⟨2, ![256, 384]⟩
abbrev S256 : Shape := ⟨1, ![256]⟩
abbrev S256x256 : Shape := ⟨2, ![256, 256]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x256 : S_.BroadcastsInDim S500000x256 (![] : Fin 0 → Fin S500000x256.rank)
  reducesTo_S500000x256_S_d0_1 : S500000x256.ReducesTo [0, 1] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S500000x128 .f32) (main_arg1 : FVec F S500000x256 .f32) (main_arg2 : IVec S500000 32) (main_arg3 : FVec F S256x384 .f32) (main_arg4 : FVec F S256 .f32) (main_arg5 : FVec F S256x256 .f32) (main_arg6 : FVec F S256 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x256 .f32 := Host.absf main_arg1
  let main_cst_0 : FVec F S_ .f32 := constant S_ .f32 0x7F800000#32
  let main_v5 : FVec F S500000x256 .f32 := broadcastInDim S500000x256 ![] bcast_S_S500000x256 main_cst_0
  let main_v6 : IVec S500000x256 1 := cmpf .olt main_v4 main_v5
  let main_c_1 : IVec S_ 1 := constantI S_ 1 1#1
  let main_v7 : IVec S_ 1 := (fun x v => Host.reduce IntOp.andi x v reducesTo_S500000x256_S_d0_1 h_S_) main_v6 main_c_1
  let main_v8 : IVec S_ 1 := andi main_v3 main_v7
  let main_v9 : FVec F S256x384 .f32 := Host.absf main_arg3
  let main_cst_2 : FVec F S_ .f32 := constant S_ .f32 0x7F800000#32
  let main_v10 : FVec F S256x384 .f32 := broadcastInDim S256x384 ![] bcast_S_S256x384 main_cst_2
  let main_v11 : IVec S256x384 1 := cmpf .olt main_v9 main_v10
  let main_c_3 : IVec S_ 1 := constantI S_ 1 1#1
  let main_v12 : IVec S_ 1 := (fun x v => Host.reduce IntOp.andi x v reducesTo_S256x384_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S500000x128 : Shape := ⟨2, ![500000, 128]⟩
abbrev S500000x256 : Shape := ⟨2, ![500000, 256]⟩
abbrev S500000 : Shape := ⟨1, ![500000]⟩
abbrev S256x384 : Shape := ⟨2, ![256, 384]⟩
abbrev S256 : Shape := ⟨1, ![256]⟩
abbrev S256x256 : Shape := ⟨2, ![256, 256]⟩
abbrev S256x128 : Shape := ⟨2, ![256, 128]⟩
abbrev S128x256 : Shape := ⟨2, ![128, 256]⟩
abbrev S1x256 : Shape := ⟨2, ![1, 256]⟩
abbrev S2000x128 : Shape := ⟨2, ![2000, 128]⟩
abbrev S2000x256 : Shape := ⟨2, ![2000, 256]⟩
abbrev S_ : Shape := ⟨0, ![]⟩
abbrev S16384x256 : Shape := ⟨2, ![16384, 256]⟩
abbrev S500000x1 : Shape := ⟨2, ![500000, 1]⟩

abbrev nBuf : Space → Nat
  | .hbm => 19
  | .vmem => 11
  | .smem => 0
  | _ => 0

abbrev bufTy : (tb : Table) → Fin (tcTables nBuf tb) → BufTy
  | .hbm, ⟨0, _⟩ => ⟨S500000x128, .f32⟩
  | .hbm, ⟨1, _⟩ => ⟨S500000x256, .f32⟩
  | .hbm, ⟨2, _⟩ => ⟨S500000, .i32⟩
  | .hbm, ⟨3, _⟩ => ⟨S256x384, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S1x256, .f32⟩
  | .hbm, ⟨13, _⟩ => ⟨S1x256, .f32⟩
  | .hbm, ⟨14, _⟩ => ⟨S500000x256, .f32⟩
  | .hbm, ⟨15, _⟩ => ⟨S_, .f32⟩
  | .hbm, ⟨16, _⟩ => ⟨S16384x256, .f32⟩
  | .hbm, ⟨17, _⟩ => ⟨S500000x1, .i32⟩
  | .hbm, ⟨18, _⟩ => ⟨S16384x256, .f32⟩
  | .local _ .vmem, ⟨0, _⟩ => ⟨S2000x128, .f32⟩
  | .local _ .vmem, ⟨1, _⟩ => ⟨S2000x128, .f32⟩
  | .local _ .vmem, ⟨2, _⟩ => ⟨S2000x256, .f32⟩
  | .local _ .vmem, ⟨3, _⟩ => ⟨S2000x256, .f32⟩
  | .local _ .vmem, ⟨4, _⟩ => ⟨S128x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S256x384_S256x128_0_0 : S256x384.Slices ![0, 0] S256x128
  transposes_S256x128_S128x256_1_0 : S256x128.Transposes [1, 0] S128x256
  slices_S256x384_S256x256_0_128 : S256x384.Slices ![0, 128] S256x256
  transposes_S256x256_S256x256_1_0 : S256x256.Transposes [1, 0] S256x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S16384x256 : S_.BroadcastsInDim S16384x256 (![] : Fin 0 → Fin S16384x256.rank)
  bcast_S500000_S500000x1_0 : S500000.BroadcastsInDim S500000x1 (![0] : Fin 1 → Fin S500000x1.rank)
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  scatter_S16384x256_S500000x1_S500000x256_1_0_0_1_wf : ScatterDims.WF S16384x256 S500000x1 S500000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S500000x256.size a
  hwx0_1 : ∀ i : grid0.Coords, EltTy.bits .f32 = 32 ∨ (Rect.block (s := S500000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S500000x256.size a
  hwx0_7 : ∀ i : grid0.Coords, EltTy.bits .f32 = 32 ∨ (Rect.block (s := S500000x256) S2000x256.size (cc0_transform_7 i) (hinb0_7 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S16384x256_S500000x1_S500000x256_1_0_0_1 : ScatterDims S16384x256 S500000x1 S500000x256 where
  updateWindowDims := [1]
  insertedWindowDims := [0]
  scatterDimsToOperandDims := [0]
  indexVectorDim := 1
  wf := scatter_S16384x256_S500000x1_S500000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x128 : Shape := ⟨2, ![500000, 128]⟩
abbrev S500000x256 : Shape := ⟨2, ![500000, 256]⟩
abbrev S500000 : Shape := ⟨1, ![500000]⟩
abbrev S256x384 : Shape := ⟨2, ![256, 384]⟩
abbrev S256 : Shape := ⟨1, ![256]⟩
abbrev S256x256 : Shape := ⟨2, ![256, 256]⟩
abbrev S500000x384 : Shape := ⟨2, ![500000, 384]⟩
abbrev S384x256 : Shape := ⟨2, ![384, 256]⟩
abbrev S1x256 : Shape := ⟨2, ![1, 256]⟩
abbrev S_ : Shape := ⟨0, ![]⟩
abbrev S16384x256 : Shape := ⟨2, ![16384, 256]⟩
abbrev S500000x1 : Shape := ⟨2, ![500000, 1]⟩

abbrev nBuf : Space → Nat
  | .hbm => 31
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x256, .f32⟩
  | .hbm, ⟨2, _⟩ => ⟨S500000, .i32⟩
  | .hbm, ⟨3, _⟩ => ⟨S256x384, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S500000x384, .f32⟩
  | .hbm, ⟨8, _⟩ => ⟨S384x256, .f32⟩
  | .hbm, ⟨9, _⟩ => ⟨S500000x256, .f32⟩
  | .hbm, ⟨10, _⟩ => ⟨S1x256, .f32⟩
  | .hbm, ⟨11, _⟩ => ⟨S500000x256, .f32⟩
  | .hbm, ⟨12, _⟩ => ⟨S500000x256, .f32⟩
  | .hbm, ⟨13, _⟩ => ⟨S500000x256, .f32⟩
  | .hbm, ⟨14, _⟩ => ⟨S500000x256, .f32⟩
  | .hbm, ⟨15, _⟩ => ⟨S_, .f32⟩
  | .hbm, ⟨16, _⟩ => ⟨S500000x256, .f32⟩
  | .hbm, ⟨17, _⟩ => ⟨S500000x256, .f32⟩
  | .hbm, ⟨18, _⟩ => ⟨S_, .f32⟩
  | .hbm, ⟨19, _⟩ => ⟨S500000x256, .f32⟩
  | .hbm, ⟨20, _⟩ => ⟨S500000x256, .f32⟩
  | .hbm, ⟨21, _⟩ => ⟨S256x256, .f32⟩
  | .hbm, ⟨22, _⟩ => ⟨S500000x256, .f32⟩
  | .hbm, ⟨23, _⟩ => ⟨S1x256, .f32⟩
  | .hbm, ⟨24, _⟩ => ⟨S500000x256, .f32⟩
  | .hbm, ⟨25, _⟩ => ⟨S500000x256, .f32⟩
  | .hbm, ⟨26, _⟩ => ⟨S500000x256, .f32⟩
  | .hbm, ⟨27, _⟩ => ⟨S_, .f32⟩
  | .hbm, ⟨28, _⟩ => ⟨S16384x256, .f32⟩
  | .hbm, ⟨29, _⟩ => ⟨S500000x1, .i32⟩
  | .hbm, ⟨30, _⟩ => ⟨S16384x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  concatenates_S500000x128_S500000x256_S500000x384_d1 : Shape.Concatenates [S500000x128, S500000x256] S500000x384 1
  transposes_S256x384_S384x256_1_0 : S256x384.Transposes [1, 0] S384x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S256x256_S256x256_1_0 : S256x256.Transposes [1, 0] S256x256
  bcast_S_S16384x256 : S_.BroadcastsInDim S16384x256 (![] : Fin 0 → Fin S16384x256.rank)
  bcast_S500000_S500000x1_0 : S500000.BroadcastsInDim S500000x1 (![0] : Fin 1 → Fin S500000x1.rank)
  dot_S500000x384_S384x256_S500000x256_1_0_0_1_n_n_wf : DotDims.WF S500000x384 S384x256 S500000x256 [1] [0] [0] [1] [] []
  dot_S500000x256_S256x256_S500000x256_1_0_0_1_n_n_wf : DotDims.WF S500000x256 S256x256 S500000x256 [1] [0] [0] [1] [] []
  scatter_S16384x256_S500000x1_S500000x256_1_0_0_1_wf : ScatterDims.WF S16384x256 S500000x1 S500000x256 [1] [0] [0] 1

variable [Facts₀]

def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def scatter_S16384x256_S500000x1_S500000x256_1_0_0_1 : ScatterDims S16384x256 S500000x1 S500000x256 where
  updateWindowDims := [1]
  insertedWindowDims := [0]
  scatterDimsToOperandDims := [0]
  indexVectorDim := 1
  wf := scatter_S16384x256_S500000x1_S500000x256_1_0_0_1_wf

class Facts : Prop extends Facts₀ where

variable [Facts]
-- ==== Proof.GateSpec.lean ====
/-
  The gated value, as one function of the argument arrays.

  For node features `inp : [N, 128]` and `fin : [N, 256]`, a gate matrix `W : [256, 384]` with bias `bl : [256]`, and a
  value matrix `Wl : [256, 256]` with bias `bla : [256]`, row `n` and channel `j`:

      gated n j = σ( Σ_{k<128} inp[n,k]·W[j,k] + Σ_{k<256} fin[n,k]·W[j,128+k] + bl[j] ) · ( Σ_{k<256} fin[n,k]·Wl[j,k] + bla[j] )

  where σ x = 1 / (1 + e^(-x)) on the extended reals. The gate's pre-activation is the row `[inp[n,·] | fin[n,·]]` of the
  concatenated features against row `j` of `W`; the contraction over the 384 joined columns is written here as its two
  stretches, the first 128 columns and the last 256. That a sum over 384 terms is the sum over the first 128 plus the sum
  over the remaining 256 (`sum_lo_hi`) uses only that addition of extended reals is commutative and associative: no
  finiteness of the entries is needed.
-/
import Idealize.ShloMosaic.Lib.ValueIdx
import Idealize.ShloMosaic.PureOps.Ideal.Laws

noncomputable section

open scoped BigOperators

namespace Cert.Gate

open Idealize.ShloMosaic Idealize.ShloMosaic.ValueIdx

/-- Column `k` of the first stretch of the 384 joined columns. -/
abbrev lo (k : Fin 128) : Fin 384 := ⟨k.val, by omega⟩
/-- Column `k` of the second stretch: joined column `128 + k`. -/
abbrev hi (k : Fin 256) : Fin 384 := ⟨128 + k.val, by omega⟩

/-- A sum over the 384 joined columns is the sum over the first 128 plus the sum over the last 256. -/
theorem sum_lo_hi (f : Fin 384 → EReal) : ∑ k : Fin 384, f k = ∑ k : Fin 128, f (lo k) + ∑ k : Fin 256, f (hi k) :=
  Fin.sum_univ_add (M := EReal) (a := 128) (b := 256) f

/-- The gate's pre-activation at row `n`, channel `j`. -/
def preAct (inp : (⟨2, ![500000, 128]⟩ : Shape).Idx → EReal) (fin : (⟨2, ![500000, 256]⟩ : Shape).Idx → EReal)
    (W : (⟨2, ![256, 384]⟩ : Shape).Idx → EReal) (bl : (⟨1, ![256]⟩ : Shape).Idx → EReal) (n : Fin 500000) (j : Fin 256) : EReal :=
  (∑ k : Fin 128, inp (ix2 n k) * W (ix2 j (lo k))) + (∑ k : Fin 256, fin (ix2 n k) * W (ix2 j (hi k))) + bl (ix1 j)

/-- The value branch at row `n`, channel `j`: row `n` of `fin` against row `j` of `Wl`, plus the bias. -/
def valueAt (fin : (⟨2, ![500000, 256]⟩ : Shape).Idx → EReal) (Wl : (⟨2, ![256, 256]⟩ : Shape).Idx → EReal)
    (bla : (⟨1, ![256]⟩ : Shape).Idx → EReal) (n : Fin 500000) (j : Fin 256) : EReal :=
  (∑ k : Fin 256, fin (ix2 n k) * Wl (ix2 j k)) + bla (ix1 j)

/-- The gated value: the logistic of the pre-activation times the value branch, entry by entry. -/
def gated (inp : (⟨2, ![500000, 128]⟩ : Shape).Idx → EReal) (fin : (⟨2, ![500000, 256]⟩ : Shape).Idx → EReal)
    (W : (⟨2, ![256, 384]⟩ : Shape).Idx → EReal) (bl : (⟨1, ![256]⟩ : Shape).Idx → EReal)
    (Wl : (⟨2, ![256, 256]⟩ : Shape).Idx → EReal) (bla : (⟨1, ![256]⟩ : Shape).Idx → EReal) :
    (⟨2, ![500000, 256]⟩ : Shape).Idx → EReal :=
  fun i => Ideal.logistic (preAct inp fin W bl (i 0) (i 1)) * valueAt fin Wl bla (i 0) (i 1)

end Cert.Gate

end
-- ==== Proof.RefGate.lean ====
/-
  The reference's gated value is `Gate.gated` of its arguments, entry by entry.

  The reference forms the joined feature matrix `cat = [inp | fin] : [N, 384]`, contracts it with `Wᵀ : [384, 256]`, adds
  the bias row, applies 1 / (1 + e^(-x)), and multiplies by `fin · Wlᵀ + bla`. Read at row `n` and channel `j`:
  joined column `k < 128` of `cat` is column `k` of `inp`, joined column `128 + k` is column `k` of `fin`, and entry
  `(k, j)` of `Wᵀ` is entry `(j, k)` of `W`; so the contraction over 384 joined columns is the sum of the two stretches
  of `Gate.preAct`. The quotient 1 / (1 + e^(-x)) with the literal `1.0` IS the logistic function on the extended reals.
-/
import proofs.«114024_j23811298690072_1_alg».proof.Proof.Gen.ReferenceIdeal.Read
import proofs.«114024_j23811298690072_1_alg».proof.Proof.GateSpec
import Idealize.ShloMosaic.Lib.ValueIdx
import Idealize.ShloMosaic.Lib.Pipeline.Value
import Idealize.ShloMosaic.PureOps.Ideal.Laws

noncomputable section

open scoped BigOperators

namespace Cert.ReferenceIdeal.RefGate

open Cert.ReferenceIdeal Cert.ReferenceIdeal.Read Idealize.ShloMosaic Idealize.ShloMosaic.ValueIdx

/-- The float word `0x3F800000` is the real number one. -/
theorem ofBits_one : Ideal.ofBits .f32 0x3F800000#32 = 1 := by
  simp [Ideal.ofBits, Ideal.ieee, -EReal.coe_mul]; norm_num

/-- Joined column `k < 128` of row `n` of `[inp | fin]` is `inp[n, k]`. -/
theorem cat_lo (x0 : (⟨S500000x128, .f32⟩ : BufTy).Contents (Elt Ideal)) (x1 : (⟨S500000x256, .f32⟩ : BufTy).Contents (Elt Ideal))
    (i : S500000x256.Idx) (k : Fin 128) :
    val_main_v0 (F := Ideal) x0 x1 (lidx_main_v2 i (Gate.lo k)) = x0 (ix2 (i 0) k) := by
  unfold val_main_v0
  exact concatenate_pair_apply_left (1 : Fin S500000x384.rank) x0 x1 _ (lidx_main_v2 i (Gate.lo k)) rfl (ix2 (i 0) k)
    (fun b => match b with
      | ⟨0, _⟩ => rfl
      | ⟨1, _⟩ => rfl)

/-- Joined column `128 + k` of row `n` of `[inp | fin]` is `fin[n, k]`. -/
theorem cat_hi (x0 : (⟨S500000x128, .f32⟩ : BufTy).Contents (Elt Ideal)) (x1 : (⟨S500000x256, .f32⟩ : BufTy).Contents (Elt Ideal))
    (i : S500000x256.Idx) (k : Fin 256) :
    val_main_v0 (F := Ideal) x0 x1 (lidx_main_v2 i (Gate.hi k)) = x1 (ix2 (i 0) k) := by
  unfold val_main_v0
  exact concatenate_pair_apply_right (1 : Fin S500000x384.rank) x0 x1 _ (lidx_main_v2 i (Gate.hi k)) rfl rfl (ix2 (i 0) k)
    (fun b => match b with
      | ⟨0, _⟩ => fun _ => rfl
      | ⟨1, _⟩ => fun h => absurd rfl h)
    (by show k.val + 128 = 128 + k.val; omega)

/-- Entry `(k, j)` of `Wᵀ` is entry `(j, k)` of `W`. -/
theorem wT_at (x3 : (⟨S256x384, .f32⟩ : BufTy).Contents (Elt Ideal)) (i : S500000x256.Idx) (k : Fin 384) :
    val_main_v1 (F := Ideal) x3 (ridx_main_v2 i k) = x3 (ix2 (i 1) k) := by
  rw [val_main_v1_apply]
  exact congrArg x3 (funext fun a => by match a with | ⟨0, _⟩ => rfl | ⟨1, _⟩ => rfl)

/-- The pre-activation: the contraction over the joined columns plus the bias row. -/
theorem pre_eq (x0 : (⟨S500000x128, .f32⟩ : BufTy).Contents (Elt Ideal)) (x1 : (⟨S500000x256, .f32⟩ : BufTy).Contents (Elt Ideal))
    (x3 : (⟨S256x384, .f32⟩ : BufTy).Contents (Elt Ideal)) (x4 : (⟨S256, .f32⟩ : BufTy).Contents (Elt Ideal)) (i : S500000x256.Idx) :
    val_main_v5 (F := Ideal) x0 x1 x3 x4 i = Gate.preAct x0 x1 x3 x4 (i 0) (i 1) := by
  rw [val_main_v5_apply, val_main_v2_apply, val_main_v4_apply, val_main_v3_apply, Gate.sum_lo_hi]
  unfold Gate.preAct
  rw [Ideal.addf_def]
  refine congr (congrArg HAdd.hAdd (congr (congrArg HAdd.hAdd ?_) ?_)) ?_
  · exact Finset.sum_congr rfl fun k _ => by rw [cat_lo, wT_at]
  · exact Finset.sum_congr rfl fun k _ => by rw [cat_hi, wT_at]
  · exact congrArg x4 (funext fun a => by match a with | ⟨0, _⟩ => rfl)

/-- The value branch: `fin · Wlᵀ` plus its bias row. -/
theorem value_eq (x1 : (⟨S500000x256, .f32⟩ : BufTy).Contents (Elt Ideal)) (x5 : (⟨S256x256, .f32⟩ : BufTy).Contents (Elt Ideal))
    (x6 : (⟨S256, .f32⟩ : BufTy).Contents (Elt Ideal)) (i : S500000x256.Idx) :
    val_main_v16 (F := Ideal) x1 x5 x6 i = Gate.valueAt x1 x5 x6 (i 0) (i 1) := by
  rw [val_main_v16_apply, val_main_v13_apply, val_main_v15_apply, val_main_v14_apply]
  unfold Gate.valueAt
  rw [Ideal.addf_def]
  refine congr (congrArg HAdd.hAdd ?_) ?_
  · refine Finset.sum_congr rfl fun k _ => ?_
    rw [val_main_v12_apply]
    exact congr (congrArg HMul.hMul (congrArg x1 (funext fun a => by match a with | ⟨0, _⟩ => rfl | ⟨1, _⟩ => rfl)))
      (congrArg x5 (funext fun a => by match a with | ⟨0, _⟩ => rfl | ⟨1, _⟩ => rfl))
  · exact congrArg x6 (funext fun a => by match a with | ⟨0, _⟩ => rfl)

/-- The quotient `1 / (1 + e^(-x))` the reference spells out is the logistic of `x`. -/
theorem gate_eq (x0 : (⟨S500000x128, .f32⟩ : BufTy).Contents (Elt Ideal)) (x1 : (⟨S500000x256, .f32⟩ : BufTy).Contents (Elt Ideal))
    (x3 : (⟨S256x384, .f32⟩ : BufTy).Contents (Elt Ideal)) (x4 : (⟨S256, .f32⟩ : BufTy).Contents (Elt Ideal)) (i : S500000x256.Idx) :
    val_main_v11 (F := Ideal) x0 x1 x3 x4 i = Ideal.logistic (val_main_v5 (F := Ideal) x0 x1 x3 x4 i) := by
  rw [val_main_v11_apply, val_main_v10_apply, val_main_cst_0_apply, val_main_v9_apply, val_main_v8_apply, val_main_cst_apply,
    val_main_v7_apply, val_main_v6_apply, Ideal.ofBits_def, ofBits_one]
  rfl

/-- THE REFERENCE'S GATED VALUE is `Gate.gated` of its arguments. -/
theorem gated_eq (x0 : (⟨S500000x128, .f32⟩ : BufTy).Contents (Elt Ideal)) (x1 : (⟨S500000x256, .f32⟩ : BufTy).Contents (Elt Ideal))
    (x3 : (⟨S256x384, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v17 (F := Ideal) x0 x1 x3 x4 x5 x6 = Gate.gated x0 x1 x3 x4 x5 x6 := by
  funext i
  rw [val_main_v17_apply, gate_eq, pre_eq, value_eq]
  rfl

end Cert.ReferenceIdeal.RefGate

end
-- ==== Proof.GateBody.lean ====
/-
  What the kernel body stores, read at one entry of its block.

  At a grid point the body holds a block `a : [2000, 128]` of `inp`, a block `b : [2000, 256]` of `fin`, and whole the two
  transposed halves `w1 : [128, 256]`, `w2 : [256, 256]` of the gate matrix, the transposed value matrix `wl : [256, 256]`,
  and the bias rows `r1, r2 : [1, 256]`. It stores, at entry `(p, q)` of the output block,

      σ( Σ_{k<128} a[p,k]·w1[k,q] + Σ_{k<256} b[p,k]·w2[k,q] + r1[0,q] ) · ( Σ_{k<256} b[p,k]·wl[k,q] + r2[0,q] ).

  On the extended reals a change of float format is the identity, a matrix product into the zero accumulator is the sum of
  products over the contracted axis, and a [1, 256] row broadcast over 2000 rows reads the row at its column.
-/
import proofs.«114024_j23811298690072_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.GateBody

open Cert.KernelIdeal Cert.KernelIdeal.Gen Idealize.ShloMosaic Idealize.ShloMosaic.ValueIdx

theorem mm128_l0 (j : S2000x256.Idx) (u : dot_S2000x128_S128x256_S2000x256_1_0_0_1_n_n.contr.Idx) : (dot_S2000x128_S128x256_S2000x256_1_0_0_1_n_n.lhsIdx j u 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem mm128_l1 (j : S2000x256.Idx) (u : dot_S2000x128_S128x256_S2000x256_1_0_0_1_n_n.contr.Idx) : (dot_S2000x128_S128x256_S2000x256_1_0_0_1_n_n.lhsIdx j u 1).val = (u ⟨0, by decide⟩).val :=
  dot_S2000x128_S128x256_S2000x256_1_0_0_1_n_n.lhsIdx_val_of_single rfl j u
theorem mm128_r0 (j : S2000x256.Idx) (u : dot_S2000x128_S128x256_S2000x256_1_0_0_1_n_n.contr.Idx) : (dot_S2000x128_S128x256_S2000x256_1_0_0_1_n_n.rhsIdx j u 0).val = (u ⟨0, by decide⟩).val :=
  dot_S2000x128_S128x256_S2000x256_1_0_0_1_n_n.rhsIdx_val_of_single rfl j u
theorem mm128_r1 (j : S2000x256.Idx) (u : dot_S2000x128_S128x256_S2000x256_1_0_0_1_n_n.contr.Idx) : (dot_S2000x128_S128x256_S2000x256_1_0_0_1_n_n.rhsIdx j u 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A [2000, 128] block times a [128, 256] matrix, accumulated into zero, at entry `(p, q)`: row `p` of the block against
    column `q` of the matrix. -/
theorem mm128 (l : FVec Ideal S2000x128 .bf16) (r : FVec Ideal S128x256 .bf16) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact mm128_l0 _ _
    | ⟨1, _⟩ => exact (mm128_l1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (mm128_r0 _ _).trans hk
    | ⟨1, _⟩ => exact mm128_r1 _ _)
  rw [el, er]

theorem mm256_l0 (j : S2000x256.Idx) (u : dot_S2000x256_S256x256_S2000x256_1_0_0_1_n_n.contr.Idx) : (dot_S2000x256_S256x256_S2000x256_1_0_0_1_n_n.lhsIdx j u 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem mm256_l1 (j : S2000x256.Idx) (u : dot_S2000x256_S256x256_S2000x256_1_0_0_1_n_n.contr.Idx) : (dot_S2000x256_S256x256_S2000x256_1_0_0_1_n_n.lhsIdx j u 1).val = (u ⟨0, by decide⟩).val :=
  dot_S2000x256_S256x256_S2000x256_1_0_0_1_n_n.lhsIdx_val_of_single rfl j u
theorem mm256_r0 (j : S2000x256.Idx) (u : dot_S2000x256_S256x256_S2000x256_1_0_0_1_n_n.contr.Idx) : (dot_S2000x256_S256x256_S2000x256_1_0_0_1_n_n.rhsIdx j u 0).val = (u ⟨0, by decide⟩).val :=
  dot_S2000x256_S256x256_S2000x256_1_0_0_1_n_n.rhsIdx_val_of_single rfl j u
theorem mm256_r1 (j : S2000x256.Idx) (u : dot_S2000x256_S256x256_S2000x256_1_0_0_1_n_n.contr.Idx) : (dot_S2000x256_S256x256_S2000x256_1_0_0_1_n_n.rhsIdx j u 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A [2000, 256] block times a [256, 256] matrix, accumulated into zero, at entry `(p, q)`: row `p` of the block against
    column `q` of the matrix. -/
theorem mm256 (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact mm256_l0 _ _
    | ⟨1, _⟩ => exact (mm256_l1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (mm256_r0 _ _).trans hk
    | ⟨1, _⟩ => exact mm256_r1 _ _)
  rw [el, er]

/-- The logistic of a vector, at an index, is the logistic of the element. -/
theorem logistic_apply {s : Shape} {φ : FTy} (a : FVec Ideal s φ) (i : s.Idx) : logistic a i = Ideal.logistic (a i) := rfl

/-- A [1, 256] row, broadcast over 2000 rows, read at `(p, q)` is the row at column `q`. -/
theorem bias_row (v : FVec Ideal S1x256 .f32) (p : Fin 2000) (q : Fin 256) :
    broadcastTo S2000x256 (shapeCast S1x256 v shapeCasts_S1x256_S1x256) broadcasts_S1x256_S2000x256 (ix2 p q) = v (ix2 (0 : Fin 1) q) := by
  rw [shapeCast_self]
  exact broadcastTo_apply v broadcasts_S1x256_S2000x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- THE STORED VALUE at entry `(p, q)` of the block. -/
theorem pay_at (a : Vec Ideal S2000x128 .f32) (b : Vec Ideal S2000x256 .f32) (w1 : Vec Ideal S128x256 .f32) (w2 : Vec Ideal S256x256 .f32)
    (wl : Vec Ideal S256x256 .f32) (r1 : Vec Ideal S1x256 .f32) (r2 : Vec Ideal S1x256 .f32) (p : Fin 2000) (q : Fin 256) :
    k0_pay1 (F := Ideal) a b w1 w2 wl r1 r2 (ix2 p q)
      = Ideal.logistic ((∑ k : Fin 128, a (ix2 p k) * w1 (ix2 k q)) + (∑ k : Fin 256, b (ix2 p k) * w2 (ix2 k q)) + r1 (ix2 (0 : Fin 1) q))
        * ((∑ k : Fin 256, b (ix2 p k) * wl (ix2 k q)) + r2 (ix2 (0 : Fin 1) q)) := by
  unfold k0_pay1
  rw [mulf_apply, logistic_apply, addf_apply, addf_apply, addf_apply, mm128, mm256, mm256, bias_row, bias_row]
  simp only [truncf_apply, shapeCast_self]

end Cert.KernelIdeal.GateBody

end
-- ==== Proof.GateWindows.lean ====
/-
  The arrays the region finds in its weight and bias windows, read at an entry.

  Before the region the host cuts the gate matrix `W : [256, 384]` into its first 128 and last 256 columns and transposes
  each, transposes the value matrix `Wl : [256, 256]`, and views each bias `[256]` as a row `[1, 256]`. So, of the arrays
  as the region finds them:

      w1[k, q] = W[q, k]  (k < 128),   w2[k, q] = W[q, 128 + k]  (k < 256),   wl[k, q] = Wl[q, k],   r[0, q] = bias[q].
-/
import proofs.«114024_j23811298690072_1_alg».proof.Proof.Gen.KernelIdeal.Frame
import proofs.«114024_j23811298690072_1_alg».proof.Proof.GateSpec
import Idealize.ShloMosaic.Lib.ValueIdx
import Idealize.ShloMosaic.Lib.Pipeline.Value
import Idealize.ShloMosaic.Lib.StableHlo.Run

noncomputable section

namespace Cert.KernelIdeal.GateWindows

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays as terms of the arguments -/

theorem w1_eq (c : Dev nD) : (V m c main_v1 : S128x256.Idx → EReal)
    = transpose S128x256 [1, 0] (extractStridedSlice S256x128 ![0, 0] (m ((c : Thread nD τ).loc main_arg3)) slices_S256x384_S256x128_0_0) transposes_S256x128_S128x256_1_0 := by
  show StableHlo.after hostOps0 (fun b => m (c, b)) (Proc.devRef .tc main_v1) = _
  after_results <;> rfl

theorem w2_eq (c : Dev nD) : (V m c main_v3 : S256x256.Idx → EReal)
    = transpose S256x256 [1, 0] (extractStridedSlice S256x256 ![0, 128] (m ((c : Thread nD τ).loc main_arg3)) slices_S256x384_S256x256_0_128) transposes_S256x256_S256x256_1_0 := by
  show StableHlo.after hostOps0 (fun b => m (c, b)) (Proc.devRef .tc main_v3) = _
  after_results <;> rfl

theorem wl_eq (c : Dev nD) : (V m c main_v4 : S256x256.Idx → EReal)
    = transpose S256x256 [1, 0] (m ((c : Thread nD τ).loc main_arg5)) transposes_S256x256_S256x256_1_0 := by
  show StableHlo.after hostOps0 (fun b => m (c, b)) (Proc.devRef .tc main_v4) = _
  after_results <;> rfl

theorem r1_eq (c : Dev nD) : (V m c main_v5 : S1x256.Idx → EReal)
    = shapeCast S1x256 (m ((c : Thread nD τ).loc main_arg4)) shapeCasts_S256_S1x256 := by
  show StableHlo.after hostOps0 (fun b => m (c, b)) (Proc.devRef .tc main_v5) = _
  after_results <;> rfl

theorem r2_eq (c : Dev nD) : (V m c main_v6 : S1x256.Idx → EReal)
    = shapeCast S1x256 (m ((c : Thread nD τ).loc main_arg6)) shapeCasts_S256_S1x256 := by
  show StableHlo.after hostOps0 (fun b => m (c, b)) (Proc.devRef .tc main_v6) = _
  after_results <;> rfl

/-! ## Read at an entry -/

/-- A transposed column slice of a [256, 384] matrix starting at column `o`: entry `(k, q)` is the matrix at `(q, o + k)`. -/
theorem w1_at (c : Dev nD) (k : Fin 128) (q : Fin 256) :
    (V m c main_v1 : S128x256.Idx → EReal) (ix2 k q) = m ((c : Thread nD τ).loc main_arg3) (ix2 q (Gate.lo k)) := by
  rw [w1_eq]
  refine (transpose_apply [1, 0] _ transposes_S256x128_S128x256_1_0 (ix2 k q) (ix2 q k) (fun b => match b with
    | ⟨0, _⟩ => rfl
    | ⟨1, _⟩ => rfl)).trans ?_
  exact extractStridedSlice_apply ![0, 0] _ slices_S256x384_S256x128_0_0 (ix2 q k) (ix2 q (Gate.lo k)) (fun a => match a with
    | ⟨0, _⟩ => by show q.val = 0 + q.val; omega
    | ⟨1, _⟩ => by show k.val = 0 + k.val; omega)

theorem w2_at (c : Dev nD) (k : Fin 256) (q : Fin 256) :
    (V m c main_v3 : S256x256.Idx → EReal) (ix2 k q) = m ((c : Thread nD τ).loc main_arg3) (ix2 q (Gate.hi k)) := by
  rw [w2_eq]
  refine (transpose_apply [1, 0] _ transposes_S256x256_S256x256_1_0 (ix2 k q) (ix2 q k) (fun b => match b with
    | ⟨0, _⟩ => rfl
    | ⟨1, _⟩ => rfl)).trans ?_
  exact extractStridedSlice_apply ![0, 128] _ slices_S256x384_S256x256_0_128 (ix2 q k) (ix2 q (Gate.hi k)) (fun a => match a with
    | ⟨0, _⟩ => by show q.val = 0 + q.val; omega
    | ⟨1, _⟩ => by show 128 + k.val = 128 + k.val; rfl)

theorem wl_at (c : Dev nD) (k : Fin 256) (q : Fin 256) :
    (V m c main_v4 : S256x256.Idx → EReal) (ix2 k q) = m ((c : Thread nD τ).loc main_arg5) (ix2 q k) := by
  rw [wl_eq]
  exact transpose_apply [1, 0] _ transposes_S256x256_S256x256_1_0 (ix2 k q) (ix2 q k) (fun b => match b with
    | ⟨0, _⟩ => rfl
    | ⟨1, _⟩ => rfl)

/-- A vector `[256]` viewed as a row `[1, 256]`: entry `(0, q)` is the vector at `q`. -/
theorem row_at (v : S256.Idx → EReal) (q : Fin 256) :
    shapeCast S1x256 v shapeCasts_S256_S1x256 (ix2 (0 : Fin 1) q) = v (ix1 q) :=
  shapeCast_apply v shapeCasts_S256_S1x256 (ix2 (0 : Fin 1) q) (ix1 q) (by
    rw [Shape.rowMajor_val_two, Shape.rowMajor_val_one]; show q.val = 0 * 256 + q.val; omega)

theorem r1_at (c : Dev nD) (q : Fin 256) :
    (V m c main_v5 : S1x256.Idx → EReal) (ix2 (0 : Fin 1) q) = m ((c : Thread nD τ).loc main_arg4) (ix1 q) := by
  rw [r1_eq]; exact row_at _ q

theorem r2_at (c : Dev nD) (q : Fin 256) :
    (V m c main_v6 : S1x256.Idx → EReal) (ix2 (0 : Fin 1) q) = m ((c : Thread nD τ).loc main_arg6) (ix1 q) := by
  rw [r2_eq]; exact row_at _ q

end Cert.KernelIdeal.GateWindows

end
-- ==== Proof.GateBlocks.lean ====
/-
  From blocks to the array: after the region the output array holds the gated value.

  The grid has 250 points; point `t` stages rows `2000·t … 2000·t + 1999` of `inp`, of `fin` and of the output, and the
  weight and bias arrays whole (their block index is 0 at every point). So entry `(p, q)` of what point `t` writes back is
  the body's stored value over row `n = 2000·t + p` of the features, which is `Gate.gated` at `(n, q)`; every row `n` lies
  in the block of point `n / 2000`, so the blocks cover the array and it ends holding `Gate.gated` of the arguments.
-/
import proofs.«114024_j23811298690072_1_alg».proof.Proof.Gen.KernelIdeal.Frame
import proofs.«114024_j23811298690072_1_alg».proof.Proof.GateSpec
import proofs.«114024_j23811298690072_1_alg».proof.Proof.GateBody
import proofs.«114024_j23811298690072_1_alg».proof.Proof.GateWindows
import Idealize.ShloMosaic.Lib.ValueIdx
import Idealize.ShloMosaic.Lib.Pipeline.Value

noncomputable section

open scoped BigOperators

namespace Cert.KernelIdeal.GateBlocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the grid: the row-tiled windows are at block `(t, 0)`, the whole windows at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks read at an entry -/

/-- Entry `(p, k)` of point `t`'s block of `inp` is `inp` at row `n = 2000·t + p`. -/
theorem inp_blk (c : Dev nD) (t : Fin cfg0.N) (p : Fin 2000) (n : Fin 500000) (hn : n.val = t.val * 2000 + p.val) (k : Fin 128) :
    iblk m c 0 t (ix2 p k) = m ((c : Thread nD τ).loc main_arg0) (ix2 n k) := by
  show V m c main_arg0 (((cfg0.win 0).blk t).view.emb (ix2 p k)) = _
  rw [V_main_arg0]
  obtain ⟨e, e', -⟩ := block_index t
  refine congrArg (m ((c : Thread nD τ).loc main_arg0)) (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- Entry `(p, k)` of point `t`'s block of `fin` is `fin` at row `n = 2000·t + p`. -/
theorem fin_blk (c : Dev nD) (t : Fin cfg0.N) (p : Fin 2000) (n : Fin 500000) (hn : n.val = t.val * 2000 + p.val) (k : Fin 256) :
    iblk m c 1 t (ix2 p k) = m ((c : Thread nD τ).loc main_arg1) (ix2 n k) := by
  show V m c main_arg1 (((cfg0.win 1).blk t).view.emb (ix2 p k)) = _
  rw [V_main_arg1]
  obtain ⟨-, -, e, e', -⟩ := block_index t
  refine congrArg (m ((c : Thread nD τ).loc main_arg1)) (funext fun a => Fin.ext ?_)
  match a with
  | ⟨0, _⟩ => show win0_1.index t (0 : Fin 2) * 2000 + 1 * p.val = n.val; omega
  | ⟨1, _⟩ => show win0_1.index t (1 : Fin 2) * 256 + 1 * k.val = k.val; omega

/-- The first transposed half of the gate matrix is staged whole: entry `(k, q)` is `W[q, k]`. -/
theorem w1_blk (c : Dev nD) (t : Fin cfg0.N) (k : Fin 128) (q : Fin 256) :
    iblk m c 2 t (ix2 k q) = m ((c : Thread nD τ).loc main_arg3) (ix2 q (Gate.lo k)) := by
  refine Eq.trans ?_ (GateWindows.w1_at m c k q)
  show V m c main_v1 (((cfg0.win 2).blk t).view.emb (ix2 k q)) = V m c main_v1 (ix2 k q)
  obtain ⟨-, -, -, -, e, e', -⟩ := block_index t
  refine congrArg (V m c main_v1) (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- The second transposed half is staged whole: entry `(k, q)` is `W[q, 128 + k]`. -/
theorem w2_blk (c : Dev nD) (t : Fin cfg0.N) (k : Fin 256) (q : Fin 256) :
    iblk m c 3 t (ix2 k q) = m ((c : Thread nD τ).loc main_arg3) (ix2 q (Gate.hi k)) := by
  refine Eq.trans ?_ (GateWindows.w2_at m c k q)
  show V m c main_v3 (((cfg0.win 3).blk t).view.emb (ix2 k q)) = V m c main_v3 (ix2 k q)
  obtain ⟨-, -, -, -, -, -, e, e', -⟩ := block_index t
  refine congrArg (V m c main_v3) (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

/-- The gate's bias row is staged whole: entry `(0, q)` is `bl[q]`. -/
theorem r1_blk (c : Dev nD) (t : Fin cfg0.N) (q : Fin 256) :
    iblk m c 4 t (ix2 (0 : Fin 1) q) = m ((c : Thread nD τ).loc main_arg4) (ix1 q) := by
  refine Eq.trans ?_ (GateWindows.r1_at m c q)
  show V m c main_v5 (((cfg0.win 4).blk t).view.emb (ix2 (0 : Fin 1) q)) = V m c main_v5 (ix2 (0 : Fin 1) q)
  obtain ⟨-, -, -, -, -, -, -, -, e, e', -⟩ := block_index t
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega

/-- The transposed value matrix is staged whole: entry `(k, q)` is `Wl[q, k]`. -/
theorem wl_blk (c : Dev nD) (t : Fin cfg0.N) (k : Fin 256) (q : Fin 256) :
    iblk m c 5 t (ix2 k q) = m ((c : Thread nD τ).loc main_arg5) (ix2 q k) := by
  refine Eq.trans ?_ (GateWindows.wl_at m c k q)
  show V m c main_v4 (((cfg0.win 5).blk t).view.emb (ix2 k q)) = V m c main_v4 (ix2 k q)
  obtain ⟨-, -, -, -, -, -, -, -, -, -, e, e', -⟩ := block_index t
  refine congrArg (V m c main_v4) (funext fun a => Fin.ext ?_)
  match a with
  | ⟨0, _⟩ => show win0_5.index t (0 : Fin 2) * 256 + 1 * k.val = k.val; omega
  | ⟨1, _⟩ => show win0_5.index t (1 : Fin 2) * 256 + 1 * q.val = q.val; omega

/-- The value branch's bias row is staged whole: entry `(0, q)` is `bla[q]`. -/
theorem r2_blk (c : Dev nD) (t : Fin cfg0.N) (q : Fin 256) :
    iblk m c 6 t (ix2 (0 : Fin 1) q) = m ((c : Thread nD τ).loc main_arg6) (ix1 q) := by
  refine Eq.trans ?_ (GateWindows.r2_at m c q)
  show V m c main_v6 (((cfg0.win 6).blk t).view.emb (ix2 (0 : Fin 1) q)) = V m c main_v6 (ix2 (0 : Fin 1) q)
  obtain ⟨-, -, -, -, -, -, -, -, -, -, -, -, e, e', -⟩ := block_index t
  refine congrArg (V m c main_v6) (funext fun a => Fin.ext ?_)
  match a with
  | ⟨0, _⟩ => show win0_6.index t (0 : Fin 2) * 1 + 1 * 0 = 0; omega
  | ⟨1, _⟩ => show win0_6.index t (1 : Fin 2) * 256 + 1 * q.val = q.val; omega

/-- Entry `(p, q)` of point `t`'s output block sits at row `n = 2000·t + p`, column `q` of the array. -/
theorem out_emb (t : Fin cfg0.N) (p : Fin 2000) (n : Fin 500000) (hn : n.val = t.val * 2000 + p.val) (q : Fin 256) :
    ((cfg0.win 7).blk t).view.emb (ix2 p q) = ix2 n q := by
  obtain ⟨-, -, -, -, -, -, -, -, -, -, -, -, -, -, e, e'⟩ := block_index t
  refine funext fun a => Fin.ext ?_
  match a with
  | ⟨0, _⟩ => show win0_7.index t (0 : Fin 2) * 2000 + 1 * p.val = n.val; omega
  | ⟨1, _⟩ => show win0_7.index t (1 : Fin 2) * 256 + 1 * q.val = q.val; omega

/-! ## What a point writes back -/

/-- The gated value of the arguments as launched, on core `c`. -/
abbrev gatedOf (c : Dev nD) : S500000x256.Idx → EReal :=
  Gate.gated (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))

theorem point_rows (t : Fin cfg0.N) (p : Fin 2000) : t.val * 2000 + p.val < 500000 := by
  have ht : t.val < 250 := lt_of_lt_of_eq t.isLt N_0
  have hp : p.val < 2000 := p.isLt
  omega

/-- WHAT POINT `t` WRITES BACK is block `t` of the gated value. -/
theorem flushed_eq (c : Dev nD) (t : Fin cfg0.N) :
    (dats m 0 c).flushed 7 t = ((cfg0.win 7).blk t).view.read (Elt Ideal) (gatedOf m c) := by
  show (cfg0.win 7).cut (grid0.coords t) ((dats m 0 c).after 7 t) = _
  rw [after0_7]
  unfold out0_7
  rw [View.canon_unit_zero zero_offsets]
  simp only [View.ld_unit_zero (S := S2000x128) zero_offsets, View.ld_unit_zero (S := S2000x256) zero_offsets,
    View.ld_unit_zero (S := S128x256) zero_offsets, View.ld_unit_zero (S := S256x256) zero_offsets,
    View.ld_unit_zero (S := S1x256) zero_offsets]
  funext j
  obtain ⟨p, q, rfl⟩ : ∃ (p : Fin 2000) (q : Fin 256), j = ix2 p q := ⟨j 0, j 1, eq_ix2 j⟩
  show k0_pay1 (iblk m c 0 t) (iblk m c 1 t) (iblk m c 2 t) (iblk m c 3 t) (iblk m c 5 t) (iblk m c 4 t) (iblk m c 6 t) (ix2 p q)
    = gatedOf m c (((cfg0.win 7).blk t).view.emb (ix2 p q))
  have hn : (⟨t.val * 2000 + p.val, point_rows t p⟩ : Fin 500000).val = t.val * 2000 + p.val := rfl
  rw [out_emb t p _ hn q]
  refine (GateBody.pay_at (iblk m c 0 t) (iblk m c 1 t) (iblk m c 2 t) (iblk m c 3 t) (iblk m c 5 t) (iblk m c 4 t) (iblk m c 6 t) p q).trans ?_
  simp only [inp_blk m c t p _ hn, fin_blk m c t p _ hn, w1_blk m c t, w2_blk m c t, r1_blk m c t, wl_blk m c t, r2_blk m c t]
  rfl

/-! ## The cover, and the array after the run -/

/-- An index of the array is in point `t`'s block iff each coordinate is in the block's range on its axis. -/
theorem mem_blk (t : Fin cfg0.N) (i : S500000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v7).slice (win0_7.rect t)).set ↔ _
  rw [View.set_slice_whole, Rect.mem_set_unit]
  exact Iff.rfl

/-- Row `n` lies in the block of point `n / 2000`: the blocks cover the array. -/
theorem cover (i : S500000x256.Idx) : ∃ t : Fin cfg0.N, (cfg0.win 7).flush t = true ∧ i ∈ ((cfg0.win 7).blk t).view.set := by
  have hi0 : (i 0).val < 500000 := (i 0).isLt
  have hi1 : (i 1).val < 256 := (i 1).isLt
  have hN : cfg0.N = 250 := N_0
  have ht : (i 0).val / 2000 < cfg0.N := by rw [hN]; omega
  obtain ⟨-, -, -, -, -, -, -, -, -, -, -, -, -, -, e, e'⟩ := block_index ⟨(i 0).val / 2000, ht⟩
  refine ⟨⟨(i 0).val / 2000, ht⟩, flush0_7 _, ?_⟩
  rw [mem_blk]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e]; show (i 0).val / 2000 * 2000 ≤ (i 0).val ∧ (i 0).val < (i 0).val / 2000 * 2000 + 2000; omega
  | ⟨1, _⟩ =>
    show win0_7.index ⟨(i 0).val / 2000, ht⟩ (1 : Fin 2) * 256 ≤ (i 1).val ∧ (i 1).val < win0_7.index ⟨(i 0).val / 2000, ht⟩ (1 : Fin 2) * 256 + 256
    rw [e']; omega

/-- THE OUTPUT ARRAY AFTER THE REGION holds the gated value of the arguments. -/
theorem final (c : Dev nD) : (dats m 0 c).arrAt 7 cfg0.N = gatedOf m c :=
  (dats m 0 c).arrAt_eq_of_cover 7 (gatedOf m c) (fun t _ => flushed_eq m c t) cover

end Cert.KernelIdeal.GateBlocks

end
-- ==== Proof.GateRun.lean ====
/-
  The kernel's run: its result is the segment sum of the gated value.

  After the region the program scatters the rows of the region's output into 16384 zeroed segments by the index array
  (row `n` is added into segment `idx[n]`). The region's output is `Gate.gated` of the arguments (GateBlocks), the index
  array is untouched by the region, so the result is `segSum` of the gated value and the index array — the scatter kept
  closed: both programs apply the same one to their gated values.
-/
import proofs.«114024_j23811298690072_1_alg».proof.Proof.Gen.KernelIdeal.Frame
import proofs.«114024_j23811298690072_1_alg».proof.Proof.GateSpec
import proofs.«114024_j23811298690072_1_alg».proof.Proof.GateBlocks
import Idealize.ShloMosaic.Lib.Pipeline.Value
import Idealize.ShloMosaic.Lib.StableHlo.Run

noncomputable section

namespace Cert.KernelIdeal.GateRun

open Cert.KernelIdeal Cert.KernelIdeal.Gen Idealize.ShloMosaic Idealize.ShloMosaic.TcCoe
open Idealize.SL.Sem Idealize.ShloMosaic.StableHlo
open Idealize.ShloMosaic.Pipeline (Dat)

/-- The rows of `g` added into 16384 zeroed segments, row `n` into segment `idx[n]`. -/
def segSum (g : S500000x256.Idx → EReal) (idx : S500000.Idx → BitVec 32) : S16384x256.Idx → EReal :=
  Host.scatterAdd (F := Ideal) scatter_S16384x256_S500000x1_S500000x256_1_0_0_1
    (broadcastInDim S16384x256 ![] bcast_S_S16384x256 (constant (F := Ideal) S_ .f32 0x00000000#32))
    (broadcastInDim S500000x1 ![0] bcast_S500000_S500000x1_0 idx) g

variable (m : (ℓ : Loc nD τ sig) → Buf (Elt Ideal) ℓ) (ρ : Dev nD → PrngReg)

/-- What the lines after the region leave in the result buffer. -/
theorem tail_eq (c : Dev nD) :
    Pipeline.afterTail₀ cfgs (dats m) 0 (V0 m) [hostOps1] c main_v10
      = segSum (GateBlocks.gatedOf m c) (m ((c : Thread nD τ).loc main_arg2)) := by
  have h7 : Pipeline.withArrays spec0 c (V0 m c) (fun w => (dats m 0 c).arrAt w cfg0.N) (Proc.devRef .tc main_v7) = GateBlocks.gatedOf m c :=
    (Pipeline.withArrays_arr spec0 launch0.win.arr_inj c _ _ 7).trans (GateBlocks.final m c)
  have h2 : Pipeline.withArrays spec0 c (V0 m c) (fun w => (dats m 0 c).arrAt w cfg0.N) (Proc.devRef .tc main_arg2) = m ((c : Thread nD τ).loc main_arg2) :=
    (Pipeline.withArrays_of_ne spec0 c (V0 m c) _ main_arg2 (by exact (by decide : ∀ w, Pipeline.arrRef spec0 w ≠ main_arg2))).trans (V_main_arg2 m c)
  unfold Pipeline.afterTail₀
  show StableHlo.after hostOps1 (Pipeline.withArrays spec0 c (V0 m c) (fun w => (dats m 0 c).arrAt w cfg0.N)) (Proc.devRef .tc main_v10) = _
  after_results
  rw [h7, h2]
  rfl

/-- THE KERNEL'S RUN: every weakly fair execution terminates with the result at the segment sum of the gated value of the
    arguments, and the arguments unchanged. -/
theorem run : θ_run defs (onTc (τ := τ) (main (F := Ideal))) ⟨m, fun _ => 0, ρ⟩ fun r => ∀ c : Dev nD,
      r.2.mem ((c.tc : Thread nD τ).loc main_v10) = segSum (GateBlocks.gatedOf m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v10 (Pipeline.mem_restRefs_of main_v10 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c)⟩)
    (run_main m ρ)

end Cert.KernelIdeal.GateRun

end
-- ==== Proof.lean ====
/-
  Equivalence, over the extended reals, of a gated attention pooling kernel and its plain reference.

  Both programs compute, for node features `inp : [N, 128]` and `fin : [N, 256]` (N = 500000),

      g[n, j] = σ( [inp | fin][n, ·] · W[j, ·] + bl[j] ) · ( fin[n, ·] · Wl[j, ·] + bla[j] ),      σ x = 1 / (1 + e^(-x)),

  and add row `n` of `g` into segment `idx[n]` of a zeroed `[16384, 256]` array. The kernel computes `g` in 250 blocks of 2000
  rows, with the contraction over the 384 joined feature columns split into the first 128 (against the first 128 columns
  of `W`) and the last 256 (against the rest), and with the logistic as one operation; the reference contracts the joined
  matrix at once and spells the logistic as the quotient `1 / (1 + e^(-x))`. On the extended reals a change of float format
  is the identity, the logistic operation is that quotient by definition, and a sum over 384 terms is the sum of its two
  stretches because addition is commutative and associative — so both programs' `g` is the one function `Gate.gated` of the
  arguments (RefGate for the reference; GateBody, GateWindows, GateBlocks for the kernel), and both apply the same segment
  sum to it (GateRun). No finiteness of the inputs is used.

  The three frames: the two kernel programs' are their generated frame certificates; the reference's is its run with the
  result dropped. The idealization rewrote nothing, so `preserves` is trivial.
-/
import proofs.«114024_j23811298690072_1_alg».proof.Defs
import proofs.«114024_j23811298690072_1_alg».proof.Proof.Gen.Kernel
import proofs.«114024_j23811298690072_1_alg».proof.Proof.Gen.Kernel.Frame
import proofs.«114024_j23811298690072_1_alg».proof.Proof.Gen.KernelIdeal
import proofs.«114024_j23811298690072_1_alg».proof.Proof.Gen.KernelIdeal.Frame
import proofs.«114024_j23811298690072_1_alg».proof.Proof.Gen.ReferenceIdeal
import proofs.«114024_j23811298690072_1_alg».proof.Proof.Gen.ReferenceIdeal.Run
import proofs.«114024_j23811298690072_1_alg».proof.Proof.Gen.ReferenceIdeal.Read
import proofs.«114024_j23811298690072_1_alg».proof.Proof.Gen.Pre_finite_inputs
import proofs.«114024_j23811298690072_1_alg».proof.Proof.RefGate
import proofs.«114024_j23811298690072_1_alg».proof.Proof.GateRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the segment sum of `Gate.gated` of arguments that agree. -/
theorem algebraic : Cert.algebraic_KernelIdeal_ReferenceIdeal := by
  intro m ρ m' ρ' _ hagree
  refine ⟨fun c => Cert.KernelIdeal.GateRun.segSum (Cert.KernelIdeal.GateBlocks.gatedOf m c)
      (m ((c.tc : Thread Cert.KernelIdeal.nD Cert.KernelIdeal.τ).loc Cert.KernelIdeal.main_arg2)),
    Cert.KernelIdeal.GateRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq]
  unfold Cert.ReferenceIdeal.Read.val_main_v20
  rw [Cert.ReferenceIdeal.RefGate.gated_eq, (hagree c).1, (hagree c).2.1, (hagree c).2.2.1, (hagree c).2.2.2.1,
    (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
